-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x256 : Shape := ⟨4, ![8, 256, 256, 256]⟩
abbrev S8x16 : Shape := ⟨2, ![8, 16]⟩
abbrev S16x256 : Shape := ⟨2, ![16, 256]⟩
abbrev S_ : Shape := ⟨0, ![]⟩

class Facts : Prop where
  bcast_S_S8x256x256x256 : S_.BroadcastsInDim S8x256x256x256 (![] : Fin 0 → Fin S8x256x256x256.rank)
  reducesTo_S8x256x256x256_S_d0_1_2_3 : S8x256x256x256.ReducesTo [0, 1, 2, 3] S_
  h_S_ : 0 < S_.numel
  bcast_S_S8x16 : S_.BroadcastsInDim S8x16 (![] : Fin 0 → Fin S8x16.rank)
  reducesTo_S8x16_S_d0_1 : S8x16.ReducesTo [0, 1] S_
  bcast_S_S16x256 : S_.BroadcastsInDim S16x256 (![] : Fin 0 → Fin S16x256.rank)
  reducesTo_S16x256_S_d0_1 : S16x256.ReducesTo [0, 1] S_

variable [Facts]

def fn_part1 {F : FTy → Type} [FloatOps F] (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  main_v18

def fn {F : FTy → Type} [FloatOps F] (main_arg0 : FVec F S8x256x256x256 .f32) (main_arg1 : FVec F S8x16 .f32) (main_arg2 : FVec F S16x256 .f32) (main_arg3 : FVec F S16x256 .f32) : IVec S_ 1 :=
  let main_v0 : FVec F S8x256x256x256 .f32 := Host.absf main_arg0
  let main_cst : FVec F S_ .f32 := constant S_ .f32 0x7F800000#32
  let main_v1 : FVec F S8x256x256x256 .f32 := broadcastInDim S8x256x256x256 ![] bcast_S_S8x256x256x256 main_cst
  let main_v2 : IVec S8x256x256x256 1 := cmpf .olt main_v0 main_v1
  let main_c : IVec S_ 1 := constantI S_ 1 1#1
  let main_v3 : IVec S_ 1 := (fun x v => Host.reduce IntOp.andi x v reducesTo_S8x256x256x256_S_d0_1_2_3 h_S_) main_v2 main_c
  let main_v4 : FVec F S8x16 .f32 := Host.absf main_arg1
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_v13 main_v16
-- ==== Kernel.lean ====
abbrev S8x256x256x256 : Shape := ⟨4, ![8, 256, 256, 256]⟩
abbrev S8x16 : Shape := ⟨2, ![8, 16]⟩
abbrev S16x256 : Shape := ⟨2, ![16, 256]⟩
abbrev S8x256 : Shape := ⟨2, ![8, 256]⟩
abbrev S8x256x1 : Shape := ⟨3, ![8, 256, 1]⟩
abbrev S1x16x256x256 : Shape := ⟨4, ![1, 16, 256, 256]⟩
abbrev S1x16x1 : Shape := ⟨3, ![1, 16, 1]⟩
abbrev S1x16x256 : Shape := ⟨3, ![1, 16, 256]⟩
abbrev S1x16 : Shape := ⟨2, ![1, 16]⟩
abbrev S1x16x1x1 : Shape := ⟨4, ![1, 16, 1, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x256x256x256, .f32⟩
  | .hbm, ⟨1, _⟩ => ⟨S8x16, .f32⟩
  | .hbm, ⟨2, _⟩ => ⟨S16x256, .f32⟩
  | .hbm, ⟨3, _⟩ => ⟨S16x256, .f32⟩
  | .hbm, ⟨4, _⟩ => ⟨S8x256, .f32⟩
  | .hbm, ⟨5, _⟩ => ⟨S8x256, .f32⟩
  | .hbm, ⟨6, _⟩ => ⟨S8x256x1, .f32⟩
  | .hbm, ⟨7, _⟩ => ⟨S8x256x1, .f32⟩
  | .hbm, ⟨8, _⟩ => ⟨S8x256x256x256, .f32⟩
  | .local _ .vmem, ⟨0, _⟩ => ⟨S1x16x256x256, .f32⟩
  | .local _ .vmem, ⟨1, _⟩ => ⟨S1x16x256x256, .f32⟩
  | .local _ .vmem, ⟨2, _⟩ => ⟨S1x16x1, .f32⟩
  | .local _ .vmem, ⟨3, _⟩ => ⟨S1x16x1, .f32⟩
  | .local _ .vmem, ⟨4, _⟩ => ⟨S1x16x1, .f32⟩
  | .local _ .vmem, ⟨5, _⟩ => ⟨S1x16x1, .f32⟩
  | .local _ .vmem, ⟨6, _⟩ => ⟨S1x16x256x256, .f32⟩
  | .local _ .vmem, ⟨7, _⟩ => ⟨S1x16x256x256, .f32⟩
  | _, _ => ⟨S8x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8x256_S8x256x1_0_1 : S8x256.BroadcastsInDim S8x256x1 (![0, 1] : Fin 2 → Fin S8x256x1.rank)
  inb_S1x16x256x256_S1x16x256x256_0_0_0_0 : ∀ a, (![0, 0, 0, 0] : Fin 4 → Nat) a + S1x16x256x256.size a ≤ S1x16x256x256.size a
  h_S1x16x256x256 : 0 < S1x16x256x256.numel
  reduces_S1x16x256x256_S1x16x256 : S1x16x256x256.Reduces [3] S1x16x256
  reduces_S1x16x256_S1x16 : S1x16x256.Reduces [2] S1x16
  shapeCasts_S1x16_S1x16x1x1 : S1x16.ShapeCasts S1x16x1x1
  broadcasts_S1x16x1x1_S1x16x256x256 : S1x16x1x1.Broadcasts S1x16x256x256
  inb_S1x16x1_S1x16x1_0_0_0 : ∀ a, (![0, 0, 0] : Fin 3 → Nat) a + S1x16x1.size a ≤ S1x16x1.size a
  h_S1x16x1 : 0 < S1x16x1.numel
  shapeCasts_S1x16x1_S1x16x1 : S1x16x1.ShapeCasts S1x16x1
  shapeCasts_S1x16x1_S1x16 : S1x16x1.ShapeCasts S1x16
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S8x256x256x256.size a
  hwx0_0 : ∀ i : grid0.Coords, EltTy.bits .f32 = 32 ∨ (Rect.block (s := S8x256x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1.size a ≤ S8x256x1.size a
  hwx0_1 : ∀ i : grid0.Coords, EltTy.bits .f32 = 32 ∨ (Rect.block (s := S8x256x1) S1x16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S8x256x1.size a
  hwx0_2 : ∀ i : grid0.Coords, EltTy.bits .f32 = 32 ∨ (Rect.block (s := S8x256x1) S1x16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x256.size a ≤ S8x256x256x256.size a
  hwx0_3 : ∀ i : grid0.Coords, EltTy.bits .f32 = 32 ∨ (Rect.block (s := S8x256x256x256) S1x16x256x256.size (cc0_transform_3 i) (hinb0_3 i)).WholeWords (EltTy.packing .f32)

variable [Facts₀]

def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x16x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x256x256 : Shape := ⟨4, ![8, 256, 256, 256]⟩
abbrev S8x16 : Shape := ⟨2, ![8, 16]⟩
abbrev S16x256 : Shape := ⟨2, ![16, 256]⟩
abbrev S8x256 : Shape := ⟨2, ![8, 256]⟩
abbrev S_ : Shape := ⟨0, ![]⟩
abbrev S8x256x1x1 : Shape := ⟨4, ![8, 256, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x256x256x256, .f32⟩
  | .hbm, ⟨1, _⟩ => ⟨S8x16, .f32⟩
  | .hbm, ⟨2, _⟩ => ⟨S16x256, .f32⟩
  | .hbm, ⟨3, _⟩ => ⟨S16x256, .f32⟩
  | .hbm, ⟨4, _⟩ => ⟨S8x256, .f32⟩
  | .hbm, ⟨5, _⟩ => ⟨S8x256, .f32⟩
  | .hbm, ⟨6, _⟩ => ⟨S_, .f32⟩
  | .hbm, ⟨7, _⟩ => ⟨S8x256, .f32⟩
  | .hbm, ⟨8, _⟩ => ⟨S8x256x1x1, .f32⟩
  | .hbm, ⟨9, _⟩ => ⟨S_, .f32⟩
  | .hbm, ⟨10, _⟩ => ⟨S8x256x1x1, .f32⟩
  | .hbm, ⟨11, _⟩ => ⟨S8x256x1x1, .f32⟩
  | .hbm, ⟨12, _⟩ => ⟨S_, .i32⟩
  | .hbm, ⟨13, _⟩ => ⟨S_, .f32⟩
  | .hbm, ⟨14, _⟩ => ⟨S8x256, .f32⟩
  | .hbm, ⟨15, _⟩ => ⟨S8x256x1x1, .f32⟩
  | .hbm, ⟨16, _⟩ => ⟨S_, .f32⟩
  | .hbm, ⟨17, _⟩ => ⟨S8x256x1x1, .f32⟩
  | .hbm, ⟨18, _⟩ => ⟨S8x256x1x1, .f32⟩
  | .hbm, ⟨19, _⟩ => ⟨S8x256x256x256, .f32⟩
  | .hbm, ⟨20, _⟩ => ⟨S8x256x256x256, .f32⟩
  | .hbm, ⟨21, _⟩ => ⟨S8x256x256x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x256, .f32⟩
  | .hbm, ⟨27, _⟩ => ⟨S8x256x1x1, .f32⟩
  | .hbm, ⟨28, _⟩ => ⟨S8x256x1x1, .f32⟩
  | .hbm, ⟨29, _⟩ => ⟨S8x256x1x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S8x256x1x1, .f32⟩
  | .hbm, ⟨35, _⟩ => ⟨S8x256x1x1, .f32⟩
  | .hbm, ⟨36, _⟩ => ⟨S8x256x256x256, .f32⟩
  | .hbm, ⟨37, _⟩ => ⟨S8x256x256x256, .f32⟩
  | .hbm, ⟨38, _⟩ => ⟨S_, .f32⟩
  | .hbm, ⟨39, _⟩ => ⟨S8x256x1x1, .f32⟩
  | .hbm, ⟨40, _⟩ => ⟨S8x256x1x1, .f32⟩
  | .hbm, ⟨41, _⟩ => ⟨S8x256x1x1, .f32⟩
  | .hbm, ⟨42, _⟩ => ⟨S8x256x256x256, .f32⟩
  | .hbm, ⟨43, _⟩ => ⟨S8x256x256x256, .f32⟩
  | .hbm, ⟨44, _⟩ => ⟨S8x256x1x1, .f32⟩
  | .hbm, ⟨45, _⟩ => ⟨S8x256x256x256, .f32⟩
  | .hbm, ⟨46, _⟩ => ⟨S8x256x256x256, .f32⟩
  | .hbm, ⟨47, _⟩ => ⟨S8x256x1x1, .f32⟩
  | .hbm, ⟨48, _⟩ => ⟨S8x256x256x256, .f32⟩
  | .hbm, ⟨49, _⟩ => ⟨S8x256x256x256, .f32⟩
  | _, _ => ⟨S8x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩

abbrev nD : Nat := 1
abbrev τ : Topo := Topo.v7x

variable {F : FTy → Type} [FloatOps F]

class Facts₀ : Prop where
  reducesTo_S8x256x256x256_S8x256_d2_3 : S8x256x256x256.ReducesTo [2, 3] S8x256
  h_S_ : 0 < S_.numel
  bcast_S8x256_S8x256x1x1_0_1 : S8x256.BroadcastsInDim S8x256x1x1 (![0, 1] : Fin 2 → Fin S8x256x1x1.rank)
  bcast_S_S8x256x1x1 : S_.BroadcastsInDim S8x256x1x1 (![] : Fin 0 → Fin S8x256x1x1.rank)
  bcast_S8x256x1x1_S8x256x256x256_0_1_2_3 : S8x256x1x1.BroadcastsInDim S8x256x256x256 (![0, 1, 2, 3] : Fin 4 → Fin S8x256x256x256.rank)
  dot_S8x16_S16x256_S8x256_1_0_0_1_n_n_wf : DotDims.WF S8x16 S16x256 S8x256 [1] [0] [0] [1] [] []

variable [Facts₀]

def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

class Facts : Prop extends Facts₀ where

variable [Facts]
-- ==== Proof.Spec.lean ====
/-
  Instance normalisation followed by a style-mixed affine map, as mathematics on the extended reals.

  For one sample and one channel let `f : ι → κ → EReal` be the spatial slice, `g` the mixed scale and
  `b` the mixed shift of that channel.  Two spellings of the same quantity are defined:

  * `normK`: mean and (biased) variance by multiplying the double sums with the word of `2⁻¹⁶`, the
    scale `g · rsqrt (var + ε)` and shift `b − mean · scale` folded first, result `f · scale + shift`;
  * `normR`: mean and variance by dividing the double sums by the word of `65536`, result
    `g · ((f − mean) · rsqrt (var + ε)) + b`.

  On slices of real numbers with real `g`, `b` the two agree (`normK_eq_normR`): the quotient by `65536`
  is the product with `2⁻¹⁶` on every extended real, so the means and variances coincide outright; the variance
  of reals is a non-negative real, `ε > 0`, hence the reciprocal square root is a real, and the two results are
  one polynomial identity in ℝ.  (At infinities the identity fails: distributivity is used.)
-/
import Idealize.ShloMosaic.PureOps.Ideal
import Idealize.ShloMosaic.PureOps.Ideal.Laws
import Idealize.ShloMosaic.Lib.ValueIdx

noncomputable section

namespace Cert.InstNorm

open Idealize.ShloMosaic Idealize.ShloMosaic.ValueIdx

/-- The three float words the programs spell: `2⁻¹⁶`, `65536` and `ε` (the f32 nearest `10⁻⁵`). -/
abbrev wInv : EReal := Ideal.ofBits .f32 0x37800000#32
abbrev wN : EReal := Ideal.ofBits .f32 0x47800000#32
abbrev wEps : EReal := Ideal.ofBits .f32 0x3727C5AC#32

theorem wInv_eq : wInv = ((1 / 65536 : ℝ) : EReal) := by
  simp [wInv, Ideal.ofBits, Ideal.ieee, -EReal.coe_mul]; norm_num

theorem wN_eq : wN = ((65536 : ℝ) : EReal) := by
  simp [wN, Ideal.ofBits, Ideal.ieee, -EReal.coe_mul]; norm_num

theorem wEps_pos : ∃ e : ℝ, 0 < e ∧ wEps = (e : EReal) := by
  refine ⟨_, ?_, by simp [wEps, Ideal.ofBits, Ideal.ieee, -EReal.coe_mul]; rfl⟩
  norm_num

/-- Dividing by `65536` is multiplying by `2⁻¹⁶`, on every extended real. -/
theorem div_wN (x : EReal) : Ideal.div x wN = x * wInv := by
  rw [wN_eq, wInv_eq, Ideal.div_coe (by norm_num)]

section Slice

variable {ι κ : Type} [Fintype ι] [Fintype κ]

/-- Mean of a slice, the double sum times `2⁻¹⁶`. -/
def meanK (f : ι → κ → EReal) : EReal := (∑ i, ∑ k, f i k) * wInv
/-- Biased variance of a slice about `meanK`, the double sum of squares times `2⁻¹⁶`. -/
def varK (f : ι → κ → EReal) : EReal := (∑ i, ∑ k, (f i k - meanK f) * (f i k - meanK f)) * wInv
/-- Scale and shift folded first: `f · (g · r) + (b − mean · (g · r))`, `r = rsqrt (var + ε)`. -/
def normK (f : ι → κ → EReal) (g b : EReal) (i : ι) (k : κ) : EReal :=
  f i k * (g * Ideal.rsqrt (varK f + wEps)) + (b - meanK f * (g * Ideal.rsqrt (varK f + wEps)))

/-- Mean of a slice, the double sum divided by `65536`. -/
def meanR (f : ι → κ → EReal) : EReal := Ideal.div (∑ i, ∑ k, f i k) wN
/-- Biased variance of a slice about `meanR`, the double sum of squares divided by `65536`. -/
def varR (f : ι → κ → EReal) : EReal := Ideal.div (∑ i, ∑ k, (f i k - meanR f) * (f i k - meanR f)) wN
/-- Normalise, then scale and shift: `g · ((f − mean) · rsqrt (var + ε)) + b`. -/
def normR (f : ι → κ → EReal) (g b : EReal) (i : ι) (k : κ) : EReal :=
  g * ((f i k - meanR f) * Ideal.rsqrt (varR f + wEps)) + b

theorem meanR_eq (f : ι → κ → EReal) : meanR f = meanK f := div_wN _

theorem varR_eq (f : ι → κ → EReal) : varR f = varK f := by
  unfold varR varK; rw [meanR_eq, div_wN]

/-- A finite sum of real numbers, summed on the extended reals, is the real sum. -/
theorem coe_sum {α : Type} (s : Finset α) (r : α → ℝ) : (∑ a ∈ s, (r a : EReal)) = ((∑ a ∈ s, r a : ℝ) : EReal) := by
  classical
  induction s using Finset.induction_on with
  | empty => simp
  | insert a s ha ih => rw [Finset.sum_insert ha, Finset.sum_insert ha, ih, EReal.coe_add]

/-- The same for a double sum. -/
theorem coe_sum2 (r : ι → κ → ℝ) : (∑ i, ∑ k, (r i k : EReal)) = ((∑ i, ∑ k, r i k : ℝ) : EReal) := by
  rw [← coe_sum Finset.univ fun i => ∑ k, r i k]
  exact Finset.sum_congr rfl fun i _ => coe_sum Finset.univ (r i)

/-- On real slices with real scale and shift the two spellings agree. -/
theorem normK_eq_normR (fr : ι → κ → ℝ) (gr br : ℝ) (i : ι) (k : κ) :
    normK (fun i k => (fr i k : EReal)) gr br i k = normR (fun i k => (fr i k : EReal)) gr br i k := by
  unfold normR
  rw [varR_eq, meanR_eq]
  unfold normK
  -- the mean is a real
  obtain ⟨M, hm⟩ : ∃ M : ℝ, meanK (fun i k => (fr i k : EReal)) = (M : EReal) :=
    ⟨(∑ i, ∑ k, fr i k) * (1 / 65536), by unfold meanK; rw [wInv_eq, EReal.coe_mul, coe_sum2]⟩
  -- the variance is a non-negative real
  obtain ⟨vr, hv0, hv⟩ : ∃ vr : ℝ, 0 ≤ vr ∧ varK (fun i k => (fr i k : EReal)) = (vr : EReal) := by
    refine ⟨(∑ i, ∑ k, (fr i k - M) * (fr i k - M)) * (1 / 65536),
      mul_nonneg (Finset.sum_nonneg fun i _ => Finset.sum_nonneg fun k _ => mul_self_nonneg _) (by norm_num), ?_⟩
    unfold varK
    rw [hm, wInv_eq, EReal.coe_mul (∑ i, ∑ k, (fr i k - M) * (fr i k - M)), ← coe_sum2]
    simp only [EReal.coe_sub, EReal.coe_mul]
  obtain ⟨e, he0, he⟩ := wEps_pos
  -- so the reciprocal square root is a real
  have hr : Ideal.rsqrt (varK (fun i k => (fr i k : EReal)) + wEps) = (((Real.sqrt (vr + e))⁻¹ : ℝ) : EReal) := by
    rw [hv, he, ← EReal.coe_add, Ideal.rsqrt_coe, if_neg (by linarith), if_neg (by linarith)]
  rw [hr, hm]
  simp only [← EReal.coe_mul, ← EReal.coe_sub, ← EReal.coe_add]
  congr 1
  ring

end Slice

/-! ## Whole arrays -/

abbrev SX : Shape := ⟨4, ![8, 256, 256, 256]⟩
abbrev SM : Shape := ⟨2, ![8, 256]⟩

/-- The folded spelling over a whole `[8, 256, 256, 256]` array with per-(sample, channel) scale and shift. -/
def outK (x : SX.Idx → EReal) (gm bm : SM.Idx → EReal) : SX.Idx → EReal :=
  fun j => normK (fun (h w : Fin 256) => x (ix4 (j 0) (j 1) h w)) (gm (ix2 (j 0) (j 1))) (bm (ix2 (j 0) (j 1))) (j 2) (j 3)

/-- The normalise-first spelling over a whole array. -/
def outR (x : SX.Idx → EReal) (gm bm : SM.Idx → EReal) : SX.Idx → EReal :=
  fun j => normR (fun (h w : Fin 256) => x (ix4 (j 0) (j 1) h w)) (gm (ix2 (j 0) (j 1))) (bm (ix2 (j 0) (j 1))) (j 2) (j 3)

theorem outK_apply (x : SX.Idx → EReal) (gm bm : SM.Idx → EReal) (b : Fin 8) (c h w : Fin 256) :
    outK x gm bm (ix4 b c h w) = normK (fun (h w : Fin 256) => x (ix4 b c h w)) (gm (ix2 b c)) (bm (ix2 b c)) h w := rfl

theorem outR_apply (x : SX.Idx → EReal) (gm bm : SM.Idx → EReal) (b : Fin 8) (c h w : Fin 256) :
    outR x gm bm (ix4 b c h w) = normR (fun (h w : Fin 256) => x (ix4 b c h w)) (gm (ix2 b c)) (bm (ix2 b c)) h w := rfl

/-- On arrays of real numbers the two spellings are one function. -/
theorem outK_eq_outR (x : SX.Idx → EReal) (gm bm : SM.Idx → EReal)
    (hx : ∀ j, ∃ r : ℝ, x j = (r : EReal)) (hg : ∀ j, ∃ r : ℝ, gm j = (r : EReal)) (hb : ∀ j, ∃ r : ℝ, bm j = (r : EReal)) :
    outK x gm bm = outR x gm bm := by
  choose xr hxr using hx
  choose gr hgr using hg
  choose br hbr using hb
  funext j
  obtain ⟨b, c, h, w, rfl⟩ : ∃ (b : Fin 8) (c h w : Fin 256), j = ix4 b c h w := ⟨j 0, j 1, j 2, j 3, eq_ix4 j⟩
  rw [outK_apply, outR_apply, hgr, hbr]
  have hf : (fun (h w : Fin 256) => x (ix4 b c h w)) = fun h w => ((xr (ix4 b c h w) : ℝ) : EReal) := by
    funext h w; exact hxr _
  rw [hf]
  exact normK_eq_normR _ _ _ _ _

end Cert.InstNorm

end
-- ==== Proof.Payload.lean ====
/-
  What one grid point of the kernel leaves in its output block, read at an index.

  The body loads a block `P0` of shape [1, 16, 256, 256] (one sample, sixteen channels, the whole spatial
  extent) and two columns `P1`, `P2` of shape [1, 16, 1] (the mixed scale and shift of those channels).
  Per channel it sums the block over the last axis and then over the rows, so each channel's total is the
  double sum over its 256 × 256 slice; from it the mean, the centred sum of squares, the variance, the
  reciprocal square root, and finally `x · scale + shift`.  Read at (0, c, h, w) this is `normK` of the
  channel's slice with the scale `P1 (0, c, 0)` and the shift `P2 (0, c, 0)`.
-/
import proofs.«171689_j33019708572224_2_alg».proof.Proof.Gen.KernelIdeal.Value
import proofs.«171689_j33019708572224_2_alg».proof.Proof.Spec
import Idealize.ShloMosaic.Lib.ValueIdx
import Idealize.ShloMosaic.Lib.Pipeline.Value
import Idealize.ShloMosaic.PureOps.Ideal.Laws

noncomputable section

namespace Cert.KernelIdeal.Norm

open Cert.KernelIdeal Cert.KernelIdeal.Gen Idealize.ShloMosaic Idealize.ShloMosaic.ValueIdx Cert.InstNorm

/-- A channel's total: the lane sums over the last axis, summed again over the rows. -/
def total (P : FVec Ideal S1x16x256x256 .f32) : FVec Ideal S1x16 .f32 :=
  multiReduction .add [2] S1x16 (multiReduction .add [3] S1x16x256 P 0x00000000#32 reduces_S1x16x256x256_S1x16x256 (.inl rfl) rfl)
    0x00000000#32 reduces_S1x16x256_S1x16 (.inl rfl) rfl

/-- The total of channel `c` is the double sum over its slice: the sum over `w` of each row, then over the rows `h`. -/
theorem total_apply (P : FVec Ideal S1x16x256x256 .f32) (c : Fin 16) :
    total P (ix2 0 c) = ∑ h : Fin 256, ∑ w : Fin 256, P (ix4 0 c h w) := by
  unfold total
  refine (Ideal.multiReduction_add_single _ _ reduces_S1x16x256_S1x16 _ _ (ix2 0 c)).trans ?_
  refine Finset.sum_congr rfl fun h _ => ?_
  refine (Ideal.multiReduction_add_single P _ reduces_S1x16x256x256_S1x16x256 _ _ _).trans ?_
  refine Finset.sum_congr rfl fun w _ => congrArg P ?_
  funext a
  apply Fin.ext
  match a with
  | ⟨0, _⟩ => rfl
  | ⟨1, _⟩ => rfl
  | ⟨2, _⟩ => rfl
  | ⟨3, _⟩ => rfl

/-- A per-channel value laid out as a [1, 16, 1, 1] column and repeated over the spatial extent reads,
    at (0, c, h, w), the value of channel `c`. -/
theorem spread_apply {F : FTy → Type} [FloatOps F] (v : FVec F S1x16 .f32) (c : Fin 16) (h w : Fin 256) :
    broadcastTo S1x16x256x256 (shapeCast S1x16x1x1 v shapeCasts_S1x16_S1x16x1x1) broadcasts_S1x16x1x1_S1x16x256x256 (ix4 0 c h w)
      = v (ix2 0 c) := by
  refine (broadcastTo_apply _ _ (ix4 0 c h w) (ix4 0 c 0 0) (fun a => match a with
    | ⟨0, _⟩ => rfl | ⟨1, _⟩ => rfl | ⟨2, _⟩ => rfl | ⟨3, _⟩ => rfl)).trans ?_
  refine (shapeCast_apply _ _ (ix4 0 c 0 0) (ix2 0 c) ?_)
  rw [Shape.rowMajor_val_two, Shape.rowMajor_val_four]
  show 0 * 16 + c.val = ((0 * 16 + c.val) * 1 + 0) * 1 + 0
  omega

/-! ## The block the body leaves, at an index -/

section
open Cert.KernelIdeal.Value

theorem ix3_0_eq (c : Fin 16) (h w : Fin 256) : ix3_0 (ix4 (0 : Fin 1) c h w) = ix4 0 c h w := by
  funext a; match a with | ⟨0, _⟩ => rfl | ⟨1, _⟩ => rfl | ⟨2, _⟩ => rfl | ⟨3, _⟩ => rfl
theorem ix3_1_eq (c : Fin 16) (h w : Fin 256) : ix3_1 (ix4 (0 : Fin 1) c h w) = ix3 0 c 0 := by
  funext a; match a with | ⟨0, _⟩ => rfl | ⟨1, _⟩ => rfl | ⟨2, _⟩ => rfl
theorem ix3_2_eq (c : Fin 16) (h w : Fin 256) : ix3_2 (ix4 (0 : Fin 1) c h w) = ix2 0 c := by
  funext a; match a with | ⟨0, _⟩ => rfl | ⟨1, _⟩ => rfl
theorem ix3_3_eq (c : Fin 16) (h w : Fin 256) : ix3_3 (ix4 (0 : Fin 1) c h w) = ix3 0 c 0 := by
  funext a; match a with | ⟨0, _⟩ => rfl | ⟨1, _⟩ => rfl | ⟨2, _⟩ => rfl
theorem ix3_4_eq (c : Fin 16) (h w : Fin 256) : ix3_4 (ix4 (0 : Fin 1) c h w) = ix2 0 c := by
  funext a; match a with | ⟨0, _⟩ => rfl | ⟨1, _⟩ => rfl
theorem ix3_5_eq (c : Fin 16) (h w : Fin 256) : ix3_5 (ix4 (0 : Fin 1) c h w) = ix3 0 c 0 := by
  funext a; match a with | ⟨0, _⟩ => rfl | ⟨1, _⟩ => rfl | ⟨2, _⟩ => rfl
theorem ix3_6_eq (c : Fin 16) (h w : Fin 256) : ix3_6 (ix4 (0 : Fin 1) c h w) = ix2 0 c := by
  funext a; match a with | ⟨0, _⟩ => rfl | ⟨1, _⟩ => rfl

/-- The block with each entry's channel mean taken off, squared: what the variance sums. -/
def centredSq (P : FVec Ideal S1x16x256x256 .f32) : FVec Ideal S1x16x256x256 .f32 :=
  mulf (subf P (broadcastTo S1x16x256x256 (shapeCast S1x16x1x1 (mulf (total P) (broadcast S1x16 (Scalar.ofBits .f32 0x37800000#32))) shapeCasts_S1x16_S1x16x1x1) broadcasts_S1x16x1x1_S1x16x256x256))
    (subf P (broadcastTo S1x16x256x256 (shapeCast S1x16x1x1 (mulf (total P) (broadcast S1x16 (Scalar.ofBits .f32 0x37800000#32))) shapeCasts_S1x16_S1x16x1x1) broadcasts_S1x16x1x1_S1x16x256x256))

/-- Channel `c`'s total times `2⁻¹⁶` is the mean of its slice. -/
theorem mean_eq (P : FVec Ideal S1x16x256x256 .f32) (c : Fin 16) :
    total P (ix2 0 c) * wInv = meanK (fun (h w : Fin 256) => P (ix4 0 c h w)) := by
  unfold meanK; rw [total_apply]

/-- The total of the centred squares of channel `c` times `2⁻¹⁶` is the variance of its slice. -/
theorem var_eq (P : FVec Ideal S1x16x256x256 .f32) (c : Fin 16) :
    total (centredSq P) (ix2 0 c) * wInv = varK (fun (h w : Fin 256) => P (ix4 0 c h w)) := by
  unfold varK; rw [total_apply, ← mean_eq]
  refine congrArg (· * wInv) (Finset.sum_congr rfl fun h _ => Finset.sum_congr rfl fun w _ => ?_)
  show (P (ix4 0 c h w) - broadcastTo S1x16x256x256 _ _ (ix4 0 c h w)) * (P (ix4 0 c h w) - broadcastTo S1x16x256x256 _ _ (ix4 0 c h w)) = _
  rw [spread_apply]
  rfl

/-- The block the body leaves, read at (0, c, h, w): the folded normalisation of channel `c`'s slice with that
    channel's scale and shift. -/
theorem E3_apply (P0 : Vec Ideal S1x16x256x256 .f32) (P1 P2 : Vec Ideal S1x16x1 .f32) (c : Fin 16) (h w : Fin 256) :
    E3 (F := Ideal) P0 P1 P2 (ix4 0 c h w)
      = normK (fun (h w : Fin 256) => P0 (ix4 0 c h w)) (P1 (ix3 0 c 0)) (P2 (ix3 0 c 0)) h w := by
  dsimp only [E3]
  rw [ix3_0_eq, ix3_1_eq, ix3_2_eq, ix3_3_eq, ix3_4_eq, ix3_5_eq, ix3_6_eq]
  show P0 (ix4 0 c h w) * (P1 (ix3 0 c 0) * Ideal.rsqrt (total (centredSq P0) (ix2 0 c) * wInv + wEps))
      + (P2 (ix3 0 c 0) - total P0 (ix2 0 c) * wInv * (P1 (ix3 0 c 0) * Ideal.rsqrt (total (centredSq P0) (ix2 0 c) * wInv + wEps))) = _
  rw [var_eq, mean_eq]
  rfl

end

end Cert.KernelIdeal.Norm

end
-- ==== Proof.Blocks.lean ====
/-
  From the blocks the grid points write to the whole output array.

  The grid is 8 × 16: point (b, q) works on sample `b` and the sixteen channels 16·q … 16·q + 15, with the
  whole 256 × 256 spatial extent of each.  Its input block of the big array, and its two column blocks of the
  mixed scale and shift, sit at the same (sample, channel) offset as its output block, so entry (0, c', h, w)
  of the block it writes is the folded normalisation of channel 16·q + c' of sample `b`, read at (h, w):
  block (b, q) of ONE whole-array function `kOut`.  The 128 blocks tile the array, so the array ends holding
  `kOut`.  The scale and shift columns are what the host operations before the launch left: the two mixing
  products, each laid out as a [8, 256, 1] column.
-/
import proofs.«171689_j33019708572224_2_alg».proof.Proof.Gen.KernelIdeal.Value
import proofs.«171689_j33019708572224_2_alg».proof.Proof.Spec
import proofs.«171689_j33019708572224_2_alg».proof.Proof.Payload
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.Value Cert.KernelIdeal.Norm Cert.InstNorm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The four index maps, decided over the 128 grid points: every input block sits at the output block's sample
    and channel-block offset, and at offset zero on its other axes. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 3) = win0_3.index t (0 : Fin 4) ∧ win0_1.index t (1 : Fin 3) = win0_3.index t (1 : Fin 4)
    ∧ win0_1.index t (2 : Fin 3) = 0
    ∧ win0_2.index t (0 : Fin 3) = win0_3.index t (0 : Fin 4) ∧ win0_2.index t (1 : Fin 3) = win0_3.index t (1 : Fin 4)
    ∧ win0_2.index t (2 : Fin 3) = 0
    ∧ win0_3.index t (0 : Fin 4) < 8 ∧ win0_3.index t (1 : Fin 4) < 16
    ∧ win0_3.index t (2 : Fin 4) = 0 ∧ win0_3.index t (3 : Fin 4) = 0 :=
  (by decide +kernel : ∀ t : Fin grid0.N, _)

/-- Every (sample, channel-block) pair is some grid point's. -/
theorem idx_onto : ∀ (q0 : Fin 8) (q1 : Fin 16), ∃ t : Fin cfg0.N, win0_3.index t = ![q0.val, q1.val, 0, 0] :=
  (by decide +kernel : ∀ (q0 : Fin 8) (q1 : Fin 16), ∃ t : Fin grid0.N, win0_3.index t = ![q0.val, q1.val, 0, 0])

theorem smp_lt (t : Fin cfg0.N) : win0_3.index t (0 : Fin 4) < 8 := (idx_facts t).2.2.2.2.2.2.2.2.2.2.1
theorem chb_lt (t : Fin cfg0.N) : win0_3.index t (1 : Fin 4) < 16 := (idx_facts t).2.2.2.2.2.2.2.2.2.2.2.1

/-- The sample grid point `t` works on. -/
def smp (t : Fin cfg0.N) : Fin 8 := ⟨win0_3.index t (0 : Fin 4), smp_lt t⟩
/-- The channel that entry `c'` of point `t`'s block of sixteen is. -/
def chn (t : Fin cfg0.N) (c' : Fin 16) : Fin 256 := ⟨win0_3.index t (1 : Fin 4) * 16 + c'.val, by have := chb_lt t; omega⟩

/-- The kernel's whole-array function of the arrays the launch finds: the folded normalisation of the big array
    with the scale and shift read off the two [8, 256, 1] columns. -/
def kOut (c : Dev nD) : S8x256x256x256.Idx → EReal :=
  outK (V m c main_arg0) (fun j => V m c main_v2 (ix3 (j 0) (j 1) (0 : Fin 1))) (fun j => V m c main_v3 (ix3 (j 0) (j 1) (0 : Fin 1)))

theorem kOut_apply (c : Dev nD) (b : Fin 8) (cc h w : Fin 256) :
    kOut m c (ix4 b cc h w) = normK (fun (h w : Fin 256) => V m c main_arg0 (ix4 b cc h w)) (V m c main_v2 (ix3 b cc (0 : Fin 1)))
      (V m c main_v3 (ix3 b cc (0 : Fin 1))) h w := rfl

/-! ## Where a block's entries sit in their arrays -/

theorem emb3 (t : Fin cfg0.N) (c' : Fin 16) (h w : Fin 256) :
    (((cfg0.win 3).blk t).view.emb (ix4 (0 : Fin 1) c' h w) : S8x256x256x256.Idx) = ix4 (smp t) (chn t c') h w := by
  obtain ⟨e0, e1, e2, e3, f0, f1, f2, g0, g1, g2, l0, l1, z2, z3⟩ := idx_facts t
  funext a; apply Fin.ext
  match a with
  | ⟨0, _⟩ => show win0_3.index t (0 : Fin 4) * 1 + 1 * 0 = win0_3.index t (0 : Fin 4); omega
  | ⟨1, _⟩ => show win0_3.index t (1 : Fin 4) * 16 + 1 * c'.val = win0_3.index t (1 : Fin 4) * 16 + c'.val; omega
  | ⟨2, _⟩ => show win0_3.index t (2 : Fin 4) * 256 + 1 * h.val = h.val; omega
  | ⟨3, _⟩ => show win0_3.index t (3 : Fin 4) * 256 + 1 * w.val = w.val; omega

theorem emb0 (t : Fin cfg0.N) (c' : Fin 16) (h w : Fin 256) :
    (((cfg0.win 0).blk t).view.emb (ix4 (0 : Fin 1) c' h w) : S8x256x256x256.Idx) = ix4 (smp t) (chn t c') h w := by
  obtain ⟨e0, e1, e2, e3, f0, f1, f2, g0, g1, g2, l0, l1, z2, z3⟩ := idx_facts t
  funext a; apply Fin.ext
  match a with
  | ⟨0, _⟩ => show win0_0.index t (0 : Fin 4) * 1 + 1 * 0 = win0_3.index t (0 : Fin 4); omega
  | ⟨1, _⟩ => show win0_0.index t (1 : Fin 4) * 16 + 1 * c'.val = win0_3.index t (1 : Fin 4) * 16 + c'.val; omega
  | ⟨2, _⟩ => show win0_0.index t (2 : Fin 4) * 256 + 1 * h.val = h.val; omega
  | ⟨3, _⟩ => show win0_0.index t (3 : Fin 4) * 256 + 1 * w.val = w.val; omega

theorem emb1 (t : Fin cfg0.N) (c' : Fin 16) :
    (((cfg0.win 1).blk t).view.emb (ix3 (0 : Fin 1) c' (0 : Fin 1)) : S8x256x1.Idx) = ix3 (smp t) (chn t c') (0 : Fin 1) := by
  obtain ⟨e0, e1, e2, e3, f0, f1, f2, g0, g1, g2, l0, l1, z2, z3⟩ := idx_facts t
  funext a; apply Fin.ext
  match a with
  | ⟨0, _⟩ => show win0_1.index t (0 : Fin 3) * 1 + 1 * 0 = win0_3.index t (0 : Fin 4); omega
  | ⟨1, _⟩ => show win0_1.index t (1 : Fin 3) * 16 + 1 * c'.val = win0_3.index t (1 : Fin 4) * 16 + c'.val; omega
  | ⟨2, _⟩ => show win0_1.index t (2 : Fin 3) * 1 + 1 * 0 = 0; omega

theorem emb2 (t : Fin cfg0.N) (c' : Fin 16) :
    (((cfg0.win 2).blk t).view.emb (ix3 (0 : Fin 1) c' (0 : Fin 1)) : S8x256x1.Idx) = ix3 (smp t) (chn t c') (0 : Fin 1) := by
  obtain ⟨e0, e1, e2, e3, f0, f1, f2, g0, g1, g2, l0, l1, z2, z3⟩ := idx_facts t
  funext a; apply Fin.ext
  match a with
  | ⟨0, _⟩ => show win0_2.index t (0 : Fin 3) * 1 + 1 * 0 = win0_3.index t (0 : Fin 4); omega
  | ⟨1, _⟩ => show win0_2.index t (1 : Fin 3) * 16 + 1 * c'.val = win0_3.index t (1 : Fin 4) * 16 + c'.val; omega
  | ⟨2, _⟩ => show win0_2.index t (2 : Fin 3) * 1 + 1 * 0 = 0; omega

/-- Point `t`'s input block of the big array, at (0, c', h, w), is the array at its sample and channel. -/
theorem read0 (c : Dev nD) (t : Fin cfg0.N) (c' : Fin 16) (h w : Fin 256) :
    iblk m c 0 t (ix4 (0 : Fin 1) c' h w) = V m c main_arg0 (ix4 (smp t) (chn t c') h w) := by
  show V m c main_arg0 (((cfg0.win 0).blk t).view.emb (ix4 (0 : Fin 1) c' h w)) = _
  rw [emb0]

theorem read1 (c : Dev nD) (t : Fin cfg0.N) (c' : Fin 16) :
    iblk m c 1 t (ix3 (0 : Fin 1) c' (0 : Fin 1)) = V m c main_v2 (ix3 (smp t) (chn t c') (0 : Fin 1)) := by
  show V m c main_v2 (((cfg0.win 1).blk t).view.emb (ix3 (0 : Fin 1) c' (0 : Fin 1))) = _
  rw [emb1]

theorem read2 (c : Dev nD) (t : Fin cfg0.N) (c' : Fin 16) :
    iblk m c 2 t (ix3 (0 : Fin 1) c' (0 : Fin 1)) = V m c main_v3 (ix3 (smp t) (chn t c') (0 : Fin 1)) := by
  show V m c main_v3 (((cfg0.win 2).blk t).view.emb (ix3 (0 : Fin 1) c' (0 : Fin 1))) = _
  rw [emb2]

theorem eq_ix4_unit (y : S1x16x256x256.Idx) : y = ix4 (0 : Fin 1) (y 1) (y 2) (y 3) := by
  funext a; apply Fin.ext
  match a with
  | ⟨0, _⟩ => show (y 0).val = 0; have hy : (y 0).val < 1 := (y 0).isLt; omega
  | ⟨1, _⟩ => rfl
  | ⟨2, _⟩ => rfl
  | ⟨3, _⟩ => rfl

/-- What point `t` leaves in its output block, entry by entry, is `kOut` at the entry's place in the array. -/
theorem point (c : Dev nD) (t : Fin cfg0.N) (y : S1x16x256x256.Idx) :
    out0_3 (iblk m c 0 t) (iblk m c 1 t) (iblk m c 2 t) y = kOut m c (((cfg0.win 3).blk t).view.emb y) := by
  obtain ⟨c', h, w, rfl⟩ : ∃ (c' : Fin 16) (h w : Fin 256), y = ix4 (0 : Fin 1) c' h w := ⟨y 1, y 2, y 3, eq_ix4_unit y⟩
  unfold out0_3
  rw [canon3_eq]
  simp only [View.ld_unit_zero (S := S1x16x256x256) hz4, View.ld_unit_zero (S := S1x16x1) hz3]
  refine (E3_apply (iblk m c 0 t) (iblk m c 1 t) (iblk m c 2 t) c' h w).trans ?_
  rw [emb3, kOut_apply, read1, read2]
  have hf : (fun (h w : Fin 256) => iblk m c 0 t (ix4 (0 : Fin 1) c' h w))
      = fun (h w : Fin 256) => V m c main_arg0 (ix4 (smp t) (chn t c') h w) := by
    funext h w; exact read0 m c t c' h w
  rw [hf]

/-- WHAT POINT `t` WRITES BACK is block `t` of `kOut`. -/
theorem flushed_eq (c : Dev nD) (t : Fin cfg0.N) :
    (dats m 0 c).flushed 3 t = ((cfg0.win 3).blk t).view.read (Elt Ideal) (kOut m c) := by
  rw [flushed3]
  funext y
  exact point m c t y

/-! ## The blocks tile the array -/

theorem mem_blk (t : Fin cfg0.N) (i : S8x256x256x256.Idx) :
    i ∈ ((cfg0.win 3).blk t).view.set ↔ ∀ a : Fin 4, win0_3.index t a * S1x16x256x256.size a ≤ (i a).val
      ∧ (i a).val < win0_3.index t a * S1x16x256x256.size a + S1x16x256x256.size a := by
  show i ∈ ((View.whole main_v4).slice (win0_3.rect t)).set ↔ _
  rw [View.set_slice_whole, Rect.mem_set_unit]
  exact Iff.rfl

/-- Index (b, ch, h, w) lies in the block of the point at sample `b`, channel block `ch / 16`. -/
theorem cover (i : S8x256x256x256.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 256 := (i 2).isLt
  have hi3 : (i 3).val < 256 := (i 3).isLt
  obtain ⟨t, ht⟩ := idx_onto ⟨(i 0).val, hi0⟩ ⟨(i 1).val / 16, by omega⟩
  have q0 : win0_3.index t (0 : Fin 4) = (i 0).val := congrFun ht 0
  have q1 : win0_3.index t (1 : Fin 4) = (i 1).val / 16 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 256 ≤ (i 2).val ∧ (i 2).val < win0_3.index t (2 : Fin 4) * 256 + 256; omega
  | ⟨3, _⟩ => show win0_3.index t (3 : Fin 4) * 256 ≤ (i 3).val ∧ (i 3).val < win0_3.index t (3 : Fin 4) * 256 + 256; omega

/-- THE ARRAY after the run is `kOut`. -/
theorem final (c : Dev nD) : (dats m 0 c).arrAt 3 cfg0.N = kOut m c :=
  (dats m 0 c).arrAt_eq_of_cover 3 (kOut m c) (fun t _ => flushed_eq m c t) cover

end Cert.KernelIdeal.Blocks

end
-- ==== Proof.KernelRun.lean ====
/-
  The idealized kernel's run, read: the result array ends at the folded normalisation `outK` of the big
  argument array, with scale and shift the two mixing products of the small arguments.

  The launch finds the big array as passed, and the two [8, 256, 1] columns as the host operations before it
  left them: each mixing product `sw · G`, `sw · B` (an [8, 256] array) laid out with a trailing unit axis,
  so the column at (b, c, 0) is the product at (b, c).
-/
import proofs.«171689_j33019708572224_2_alg».proof.Proof.Blocks

noncomputable section

namespace Cert.KernelIdeal.Blocks

open Cert.KernelIdeal Cert.KernelIdeal.Gen Cert.KernelIdeal.Value Cert.InstNorm
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The mixing product of the style weights with one of the two [16, 256] tables. -/
abbrev mix (sw : FVec Ideal S8x16 .f32) (G : FVec Ideal S16x256 .f32) : FVec Ideal S8x256 .f32 :=
  Host.dotGeneral (F := Ideal) dot_S8x16_S16x256_S8x256_1_0_0_1_n_n none sw G

/-- The scale column the launch finds. -/
theorem V_v2 (c : Dev nD) : (V m c main_v2 : S8x256x1.Idx → EReal)
    = broadcastInDim S8x256x1 ![0, 1] bcast_S8x256_S8x256x1_0_1
        (mix (m ((c : Thread nD τ).loc main_arg1)) (m ((c : Thread nD τ).loc main_arg2))) := by
  dsimp only [Gen.V, Gen.hostOps0]; after_results

/-- The shift column the launch finds. -/
theorem V_v3 (c : Dev nD) : (V m c main_v3 : S8x256x1.Idx → EReal)
    = broadcastInDim S8x256x1 ![0, 1] bcast_S8x256_S8x256x1_0_1
        (mix (m ((c : Thread nD τ).loc main_arg1)) (m ((c : Thread nD τ).loc main_arg3))) := by
  dsimp only [Gen.V, Gen.hostOps0]; after_results

/-- An [8, 256] array laid out as an [8, 256, 1] column, read at (b, c, 0). -/
theorem column_apply (v : S8x256.Idx → EReal) (b : Fin 8) (cc : Fin 256) :
    broadcastInDim S8x256x1 ![0, 1] bcast_S8x256_S8x256x1_0_1 v (ix3 b cc (0 : Fin 1)) = v (ix2 b cc) :=
  broadcastInDim_apply _ _ v (ix3 b cc (0 : Fin 1)) (ix2 b cc) (fun a => match a with
    | ⟨0, _⟩ => rfl | ⟨1, _⟩ => rfl)

/-- The kernel's whole-array function, in the arguments as passed. -/
theorem kOut_eq (c : Dev nD) :
    kOut m c = outK (m ((c : Thread nD τ).loc main_arg0))
      (mix (m ((c : Thread nD τ).loc main_arg1)) (m ((c : Thread nD τ).loc main_arg2)))
      (mix (m ((c : Thread nD τ).loc main_arg1)) (m ((c : Thread nD τ).loc main_arg3))) := by
  unfold kOut
  rw [V_main_arg0]
  have h2 : (fun j : SM.Idx => V m c main_v2 (ix3 (j 0) (j 1) (0 : Fin 1)))
      = mix (m ((c : Thread nD τ).loc main_arg1)) (m ((c : Thread nD τ).loc main_arg2)) := by
    funext j
    obtain ⟨b, cc, rfl⟩ : ∃ (b : Fin 8) (cc : Fin 256), j = ix2 b cc := ⟨j 0, j 1, eq_ix2 j⟩
    show (V m c main_v2 : S8x256x1.Idx → EReal) (ix3 b cc (0 : Fin 1)) = _
    rw [V_v2, column_apply]
  have h3 : (fun j : SM.Idx => V m c main_v3 (ix3 (j 0) (j 1) (0 : Fin 1)))
      = mix (m ((c : Thread nD τ).loc main_arg1)) (m ((c : Thread nD τ).loc main_arg3)) := by
    funext j
    obtain ⟨b, cc, rfl⟩ : ∃ (b : Fin 8) (cc : Fin 256), j = ix2 b cc := ⟨j 0, j 1, eq_ix2 j⟩
    show (V m c main_v3 : S8x256x1.Idx → EReal) (ix3 b cc (0 : Fin 1)) = _
    rw [V_v3, column_apply]
  rw [h2, h3]

/-- Every weakly fair execution of the idealized kernel ends with the result array at `outK` of the arguments,
    the arguments unchanged. -/
theorem run : θ_run defs (onTc (τ := τ) (main (F := Ideal))) ⟨m, fun _ => 0, ρ⟩ fun r => ∀ c : Dev nD,
      r.2.mem ((c : Thread nD τ).loc main_v4) = outK (m ((c : Thread nD τ).loc main_arg0))
          (mix (m ((c : Thread nD τ).loc main_arg1)) (m ((c : Thread nD τ).loc main_arg2)))
          (mix (m ((c : Thread nD τ).loc main_arg1)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (kOut_eq m c)), (h c).2⟩)
    (run_blocks m ρ)

/-- The mixing product of real arrays is a real array: a finite sum of products of reals. -/
theorem mix_real (sw : FVec Ideal S8x16 .f32) (G : FVec Ideal S16x256 .f32)
    (hs : ∀ i, ∃ r : ℝ, sw i = (r : EReal)) (hG : ∀ i, ∃ r : ℝ, G i = (r : EReal)) (j : S8x256.Idx) :
    ∃ r : ℝ, mix sw G j = (r : EReal) := by
  choose sr hsr using hs
  choose Gr hGr using hG
  refine ⟨∑ k : dot_S8x16_S16x256_S8x256_1_0_0_1_n_n.contr.Idx,
    sr (dot_S8x16_S16x256_S8x256_1_0_0_1_n_n.lhsIdx j k) * Gr (dot_S8x16_S16x256_S8x256_1_0_0_1_n_n.rhsIdx j k), ?_⟩
  show FloatOps.dotGeneral dot_S8x16_S16x256_S8x256_1_0_0_1_n_n none _ sw G j = _
  rw [Ideal.dotGeneral_apply, ← coe_sum]
  refine Finset.sum_congr rfl fun k _ => ?_
  rw [hsr, hGr, EReal.coe_mul]

end Cert.KernelIdeal.Blocks

end
-- ==== Proof.RefRun.lean ====
/-
  The run of the reference program, written out: @main's operations in order with the two outlined functions
  (the biased variance, and the select it ends in) unfolded at their call sites, and what the result buffer holds
  after them as one composed term of the four arguments.
-/
import proofs.«171689_j33019708572224_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 46 operations in order: nine of its own (the two mixing products, the first mean), the variance
    function's twenty (the mean again, the centred squares and their sum, the count `65536 - 0` and the test that it is
    positive), the select function's three, and the fourteen that normalise, scale and shift. -/
abbrev ops : List (HloOp τ sig (Elt F)) :=
  [ binary main_arg1 main_arg2 main_v0 ((fun l r => Host.dotGeneral dot_S8x16_S16x256_S8x256_1_0_0_1_n_n none l r) : (⟨S8x16, .f32⟩ : BufTy).Contents (Elt F) → (⟨S16x256, .f32⟩ : BufTy).Contents (Elt F) → (⟨S8x256, .f32⟩ : BufTy).Contents (Elt F)),
    binary main_arg1 main_arg3 main_v1 ((fun l r => Host.dotGeneral dot_S8x16_S16x256_S8x256_1_0_0_1_n_n none l r) : (⟨S8x16, .f32⟩ : BufTy).Contents (Elt F) → (⟨S16x256, .f32⟩ : BufTy).Contents (Elt F) → (⟨S8x256, .f32⟩ : BufTy).Contents (Elt F)),
    nullary main_cst (constant S_ .f32 0x00000000#32),
    binary main_arg0 main_cst main_v2 ((fun x v => Host.reduceAdd x v reducesTo_S8x256x256x256_S8x256_d2_3 h_S_) : (⟨S8x256x256x256, .f32⟩ : BufTy).Contents (Elt F) → (⟨S_, .f32⟩ : BufTy).Contents (Elt F) → (⟨S8x256, .f32⟩ : BufTy).Contents (Elt F)),
    unary main_v2 main_v3 (broadcastInDim S8x256x1x1 ![0, 1] bcast_S8x256_S8x256x1x1_0_1 : (⟨S8x256, .f32⟩ : BufTy).Contents (Elt F) → (⟨S8x256x1x1, .f32⟩ : BufTy).Contents (Elt F)),
    nullary main_cst_0 (constant S_ .f32 0x47800000#32),
    unary main_cst_0 main_v4 (broadcastInDim S8x256x1x1 ![] bcast_S_S8x256x1x1 : (⟨S_, .f32⟩ : BufTy).Contents (Elt F) → (⟨S8x256x1x1, .f32⟩ : BufTy).Contents (Elt F)),
    binary main_v3 main_v4 main_v5 (Host.divf : (⟨S8x256x1x1, .f32⟩ : BufTy).Contents (Elt F) → (⟨S8x256x1x1, .f32⟩ : BufTy).Contents (Elt F) → (⟨S8x256x1x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S8x256x256x256_S8x256_d2_3 h_S_),
    TRef.unary main_call0.v0 main_call0.v1 (broadcastInDim S8x256x1x1 ![0, 1] bcast_S8x256_S8x256x1x1_0_1),
    TRef.nullary main_call0.cst_0 (constant S_ .f32 0x47800000#32),
    TRef.unary main_call0.cst_0 main_call0.v2 (broadcastInDim S8x256x1x1 ![] bcast_S_S8x256x1x1),
    TRef.binary main_call0.v1 main_call0.v2 main_call0.v3 Host.divf,
    TRef.unary main_call0.v3 main_call0.v4 (broadcastInDim S8x256x256x256 ![0, 1, 2, 3] bcast_S8x256x1x1_S8x256x256x256_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x256x256x256_S8x256_d2_3 h_S_),
    TRef.unary main_call0.v9 main_call0.v10 (broadcastInDim S8x256x1x1 ![0, 1] bcast_S8x256_S8x256x1x1_0_1),
    TRef.unary main_call0.v8 main_call0.v11 (broadcastInDim S8x256x1x1 ![] bcast_S_S8x256x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x256x1x1 ![] bcast_S_S8x256x1x1),
    TRef.ternary main_call0.v13 main_call0.v12 main_call0.call0.v1 main_call0.call0.v2 (fun p a b => select (broadcastInDim S8x256x1x1 ![] bcast_S_S8x256x1x1 p) a b),
    unary main_v5 main_v7 (broadcastInDim S8x256x256x256 ![0, 1, 2, 3] bcast_S8x256x1x1_S8x256x256x256_0_1_2_3 : (⟨S8x256x1x1, .f32⟩ : BufTy).Contents (Elt F) → (⟨S8x256x256x256, .f32⟩ : BufTy).Contents (Elt F)),
    binary main_arg0 main_v7 main_v8 (subf : (⟨S8x256x256x256, .f32⟩ : BufTy).Contents (Elt F) → (⟨S8x256x256x256, .f32⟩ : BufTy).Contents (Elt F) → (⟨S8x256x256x256, .f32⟩ : BufTy).Contents (Elt F)),
    nullary main_cst_1 (constant S_ .f32 0x3727C5AC#32),
    unary main_cst_1 main_v9 (broadcastInDim S8x256x1x1 ![] bcast_S_S8x256x1x1 : (⟨S_, .f32⟩ : BufTy).Contents (Elt F) → (⟨S8x256x1x1, .f32⟩ : BufTy).Contents (Elt F)),
    binary main_v6 main_v9 main_v10 (addf : (⟨S8x256x1x1, .f32⟩ : BufTy).Contents (Elt F) → (⟨S8x256x1x1, .f32⟩ : BufTy).Contents (Elt F) → (⟨S8x256x1x1, .f32⟩ : BufTy).Contents (Elt F)),
    unary main_v10 main_v11 (Host.rsqrt : (⟨S8x256x1x1, .f32⟩ : BufTy).Contents (Elt F) → (⟨S8x256x1x1, .f32⟩ : BufTy).Contents (Elt F)),
    unary main_v11 main_v12 (broadcastInDim S8x256x256x256 ![0, 1, 2, 3] bcast_S8x256x1x1_S8x256x256x256_0_1_2_3 : (⟨S8x256x1x1, .f32⟩ : BufTy).Contents (Elt F) → (⟨S8x256x256x256, .f32⟩ : BufTy).Contents (Elt F)),
    binary main_v8 main_v12 main_v13 (mulf : (⟨S8x256x256x256, .f32⟩ : BufTy).Contents (Elt F) → (⟨S8x256x256x256, .f32⟩ : BufTy).Contents (Elt F) → (⟨S8x256x256x256, .f32⟩ : BufTy).Contents (Elt F)),
    unary main_v0 main_v14 (broadcastInDim S8x256x1x1 ![0, 1] bcast_S8x256_S8x256x1x1_0_1 : (⟨S8x256, .f32⟩ : BufTy).Contents (Elt F) → (⟨S8x256x1x1, .f32⟩ : BufTy).Contents (Elt F)),
    unary main_v14 main_v15 (broadcastInDim S8x256x256x256 ![0, 1, 2, 3] bcast_S8x256x1x1_S8x256x256x256_0_1_2_3 : (⟨S8x256x1x1, .f32⟩ : BufTy).Contents (Elt F) → (⟨S8x256x256x256, .f32⟩ : BufTy).Contents (Elt F)),
    binary main_v15 main_v13 main_v16 (mulf : (⟨S8x256x256x256, .f32⟩ : BufTy).Contents (Elt F) → (⟨S8x256x256x256, .f32⟩ : BufTy).Contents (Elt F) → (⟨S8x256x256x256, .f32⟩ : BufTy).Contents (Elt F)),
    unary main_v1 main_v17 (broadcastInDim S8x256x1x1 ![0, 1] bcast_S8x256_S8x256x1x1_0_1 : (⟨S8x256, .f32⟩ : BufTy).Contents (Elt F) → (⟨S8x256x1x1, .f32⟩ : BufTy).Contents (Elt F)),
    unary main_v17 main_v18 (broadcastInDim S8x256x256x256 ![0, 1, 2, 3] bcast_S8x256x1x1_S8x256x256x256_0_1_2_3 : (⟨S8x256x1x1, .f32⟩ : BufTy).Contents (Elt F) → (⟨S8x256x256x256, .f32⟩ : BufTy).Contents (Elt F)),
    binary main_v16 main_v18 main_v19 (addf : (⟨S8x256x256x256, .f32⟩ : BufTy).Contents (Elt F) → (⟨S8x256x256x256, .f32⟩ : BufTy).Contents (Elt F) → (⟨S8x256x256x256, .f32⟩ : BufTy).Contents (Elt F)) ]

set_option maxRecDepth 4096 in
/-- @main is that straight line: with the two functions' bodies unfolded at their calls and sequencing reassociated,
    both sides are one chain of steps. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## The composed term

What the operations compute from the four arguments, at the ideal values, named piece by piece: the mean of each
(sample, channel) slice as an array with two unit axes, the centred array, the element count `65536 - 0`, the biased
variance guarded by the test that the count is positive, and the normalised, scaled and shifted result. -/

section Term

variable (x : FVec Ideal S8x256x256x256 .f32) (sw : FVec Ideal S8x16 .f32) (G B : FVec Ideal S16x256 .f32)

/-- The slice means: the sum over the two spatial axes from `0`, spread over two unit axes, divided by `65536`. -/
def meanT : FVec Ideal S8x256x1x1 .f32 :=
  Host.divf (F := Ideal)
    (broadcastInDim S8x256x1x1 ![0, 1] bcast_S8x256_S8x256x1x1_0_1
      (Host.reduceAdd (F := Ideal) x (constant (F := Ideal) S_ .f32 0x00000000#32) reducesTo_S8x256x256x256_S8x256_d2_3 h_S_))
    (broadcastInDim S8x256x1x1 ![] bcast_S_S8x256x1x1 (constant (F := Ideal) S_ .f32 0x47800000#32))

/-- The array minus its slice means. -/
def devT : FVec Ideal S8x256x256x256 .f32 :=
  subf (F := Ideal) x (broadcastInDim S8x256x256x256 ![0, 1, 2, 3] bcast_S8x256x1x1_S8x256x256x256_0_1_2_3 (meanT x))

/-- The element count the variance divides by: `65536` minus the integer `0` converted. -/
def countT : FVec Ideal S_ .f32 :=
  subf (F := Ideal) (constant (F := Ideal) S_ .f32 0x47800000#32) (sitofp (F := Ideal) .f32 (constantI S_ 32 0#32))

/-- The slice variances: where the count is positive, the sum of the squared deviations over the two spatial axes
    divided by the count; elsewhere the not-a-number word. -/
def varT : FVec Ideal S8x256x1x1 .f32 :=
  select (broadcastInDim S8x256x1x1 ![] bcast_S_S8x256x1x1 (cmpf (F := Ideal) .ogt countT (constant (F := Ideal) S_ .f32 0x00000000#32)))
    (Host.divf (F := Ideal)
      (broadcastInDim S8x256x1x1 ![0, 1] bcast_S8x256_S8x256x1x1_0_1
        (Host.reduceAdd (F := Ideal) (mulf (F := Ideal) (devT x) (devT x)) (constant (F := Ideal) S_ .f32 0x00000000#32) reducesTo_S8x256x256x256_S8x256_d2_3 h_S_))
      (broadcastInDim S8x256x1x1 ![] bcast_S_S8x256x1x1 countT))
    (broadcastInDim S8x256x1x1 ![] bcast_S_S8x256x1x1 (id (constant (F := Ideal) S_ .f32 0x7FC00000#32)))

/-- The result: mixed scale times (deviation times reciprocal root of variance plus `ε`), plus mixed shift. -/
def refTerm : FVec Ideal S8x256x256x256 .f32 :=
  addf (F := Ideal)
    (mulf (F := Ideal)
      (broadcastInDim S8x256x256x256 ![0, 1, 2, 3] bcast_S8x256x1x1_S8x256x256x256_0_1_2_3 (broadcastInDim S8x256x1x1 ![0, 1] bcast_S8x256_S8x256x1x1_0_1 (Host.dotGeneral (F := Ideal) dot_S8x16_S16x256_S8x256_1_0_0_1_n_n none sw G)))
      (mulf (F := Ideal) (devT x)
        (broadcastInDim S8x256x256x256 ![0, 1, 2, 3] bcast_S8x256x1x1_S8x256x256x256_0_1_2_3
          (Host.rsqrt (F := Ideal) (addf (F := Ideal) (varT x) (broadcastInDim S8x256x1x1 ![] bcast_S_S8x256x1x1 (constant (F := Ideal) S_ .f32 0x3727C5AC#32)))))))
    (broadcastInDim S8x256x256x256 ![0, 1, 2, 3] bcast_S8x256x1x1_S8x256x256x256_0_1_2_3 (broadcastInDim S8x256x1x1 ![0, 1] bcast_S8x256_S8x256x1x1_0_1 (Host.dotGeneral (F := Ideal) dot_S8x16_S16x256_S8x256_1_0_0_1_n_n none sw B)))

end Term

/-! ## The run -/

attribute [local irreducible] Host.reduceAdd in
set_option maxRecDepth 8192 in
/-- The fold of the operations at the result buffer is the composed term of the arguments' contents: each
    operation's result read at its own buffer is its function's value, at any other buffer what was there. -/
theorem out_eq (V : Valuation τ sig (Elt Ideal)) :
    after (ops (F := Ideal)) V (main_v19 : DevRef τ sig)
      = refTerm (V (main_arg0 : DevRef τ sig)) (V (main_arg1 : DevRef τ sig)) (V (main_arg2 : DevRef τ sig))
          (V (main_arg3 : DevRef τ sig)) := by
  after_results_simp
  rfl

set_option maxRecDepth 8192 in
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig) := by
  refine ⟨?_, ?_, ?_, ?_⟩ <;> after_results_simp

/-- On every device, from any memory with zero counters: every weakly fair execution of @main terminates with the
    result buffer at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (out_eq _),
      (h c main_arg0).trans (args_eq _).1,
      (h c main_arg1).trans (args_eq _).2.1,
      (h c main_arg2).trans (args_eq _).2.2.1,
      (h c main_arg3).trans (args_eq _).2.2.2⟩)
    (run_seq scopedRefs_eq scopedSems_eq defs main (fun _ => ops) main_eq (fun _ => ops_sub) m ρ)

end Cert.ReferenceIdeal.RefRun

end
-- ==== Proof.RefValue.lean ====
/-
  The value of the reference program's composed term, index by index: at (sample, channel, row, column) it is the
  normalise-first spelling of instance normalisation on that (sample, channel) slice, with the mixed scale and shift
  of that channel.
-/
import proofs.«171689_j33019708572224_2_alg».proof.Proof.RefRun
import proofs.«171689_j33019708572224_2_alg».proof.Proof.Spec
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.RefRun Cert.InstNorm

/-! ## The three broadcasts read at an index -/

/-- An [8, 256] array spread over two trailing unit axes reads its (sample, channel) element. -/
theorem bc2_apply {α : Type} (u : S8x256.Idx → α) (b : Fin 8) (c : Fin 256) (h w : Fin 1) :
    broadcastInDim S8x256x1x1 ![0, 1] bcast_S8x256_S8x256x1x1_0_1 u (ix4 b c h w) = u (ix2 b c) :=
  broadcastInDim_apply _ _ _ _ _ (fun a => by
    match a with
    | ⟨0, _⟩ => rfl
    | ⟨1, _⟩ => rfl)

/-- An [8, 256, 1, 1] array spread over the two spatial axes reads, at every (row, column), its element at the
    unit axes' only coordinate. -/
theorem bc4_apply {α : Type} (u : S8x256x1x1.Idx → α) (b : Fin 8) (c h w : Fin 256) :
    broadcastInDim S8x256x256x256 ![0, 1, 2, 3] bcast_S8x256x1x1_S8x256x256x256_0_1_2_3 u (ix4 b c h w) = u (ix4 b c 0 0) :=
  broadcastInDim_apply _ _ _ _ _ (fun a => by
    match a with
    | ⟨0, _⟩ => rfl
    | ⟨1, _⟩ => rfl
    | ⟨2, _⟩ => rfl
    | ⟨3, _⟩ => rfl)

/-- A scalar spread over [8, 256, 1, 1] reads the scalar. -/
theorem bc0_apply {α : Type} (u : S_.Idx → α) (j : S8x256x1x1.Idx) :
    broadcastInDim S8x256x1x1 ![] bcast_S_S8x256x1x1 u j = u ix0 :=
  broadcastInDim_scalar_apply _ _ _

/-! ## The sum over the two spatial axes -/

/-- Dropping the two spatial coordinates of (sample, channel, row, column) leaves (sample, channel). -/
theorem drop_ix4 (b : Fin 8) (c h w : Fin 256) :
    reducesTo_S8x256x256x256_S8x256_d2_3.drop (ix4 b c h w) = ix2 b c := by
  funext a
  refine Fin.ext ?_
  match a with
  | ⟨0, _⟩ => rfl
  | ⟨1, _⟩ => rfl

/-- An index that drops to (sample, channel) is that sample and channel with its own row and column. -/
theorem eq_of_drop (i : S8x256x256x256.Idx) (b : Fin 8) (c : Fin 256)
    (hi : reducesTo_S8x256x256x256_S8x256_d2_3.drop i = ix2 b c) : ix4 b c (i 2) (i 3) = i := by
  have h0 : ((reducesTo_S8x256x256x256_S8x256_d2_3.drop i) 0 : Nat) = b.val := by rw [hi]
  have h1 : ((reducesTo_S8x256x256x256_S8x256_d2_3.drop i) 1 : Nat) = c.val := by rw [hi]
  funext a
  refine Fin.ext ?_
  match a with
  | ⟨0, _⟩ => exact h0.symm
  | ⟨1, _⟩ => exact h1.symm
  | ⟨2, _⟩ => rfl
  | ⟨3, _⟩ => rfl

/-- The indices of an [8, 256, 256, 256] array that drop to a given (sample, channel) are in bijection with the
    (row, column) pairs, so the sum over that fibre is the double sum over rows and columns. -/
theorem sum_fibre (x : S8x256x256x256.Idx → EReal) (b : Fin 8) (c : Fin 256) :
    ∑ i ∈ Finset.univ.filter (fun i => reducesTo_S8x256x256x256_S8x256_d2_3.drop i = ix2 b c), x i
      = ∑ h : Fin 256, ∑ w : Fin 256, x (ix4 b c h w) := by
  rw [← Finset.sum_product' Finset.univ Finset.univ (fun (h w : Fin 256) => x (ix4 b c h w))]
  refine Finset.sum_nbij' (fun i => ((i 2, i 3) : Fin 256 × Fin 256)) (fun p => ix4 b c p.1 p.2) ?_ ?_ ?_ ?_ ?_
  · intro i _; exact Finset.mem_product.mpr ⟨Finset.mem_univ _, Finset.mem_univ _⟩
  · intro p _; exact Finset.mem_filter.mpr ⟨Finset.mem_univ _, drop_ix4 b c p.1 p.2⟩
  · intro i hi; exact eq_of_drop i b c (Finset.mem_filter.mp hi).2
  · intro p _; rfl
  · intro i hi; exact congrArg x (eq_of_drop i b c (Finset.mem_filter.mp hi).2).symm

/-- The host's sum over the two spatial axes from the zero word, read at (sample, channel): the double sum over
    rows and columns. -/
theorem reduce_apply (x : FVec Ideal S8x256x256x256 .f32) (b : Fin 8) (c : Fin 256) :
    Host.reduceAdd (F := Ideal) x (constant (F := Ideal) S_ .f32 0x00000000#32) reducesTo_S8x256x256x256_S8x256_d2_3 h_S_ (ix2 b c)
      = ∑ h : Fin 256, ∑ w : Fin 256, x (ix4 b c h w) := by
  rw [hostReduceAdd_apply]
  unfold Ideal.hostReduceAdd
  rw [constant_apply, Ideal.ofBits_zero_f32, zero_add]
  exact sum_fibre x b c

/-! ## The pieces of the composed term at an index -/

section Pieces

variable (x : FVec Ideal S8x256x256x256 .f32)

/-- The mean array at (sample, channel) is the slice's mean. -/
theorem meanT_apply (b : Fin 8) (c : Fin 256) (h w : Fin 1) :
    meanT x (ix4 b c h w) = meanR (fun (h w : Fin 256) => x (ix4 b c h w)) := by
  unfold meanT meanR
  rw [hostDivf_apply, bc2_apply, reduce_apply, bc0_apply, constant_apply]

/-- The centred array at an index is the element minus its slice's mean. -/
theorem devT_apply (b : Fin 8) (c h w : Fin 256) :
    devT x (ix4 b c h w) = x (ix4 b c h w) - meanR (fun (h w : Fin 256) => x (ix4 b c h w)) := by
  unfold devT
  rw [subf_apply, bc4_apply, meanT_apply]

/-- The count is the word of `65536`: the integer zero converts to the real zero. -/
theorem countT_apply : countT ix0 = wN := by
  unfold countT
  rw [subf_apply, constant_apply, sitofp_apply]
  show wN - (((0#32 : BitVec 32).toInt : ℝ) : EReal) = wN
  simp

theorem wN_pos : (0 : EReal) < wN := by
  rw [wN_eq]; exact_mod_cast (by norm_num : (0 : ℝ) < 65536)

/-- The count is positive, so the guard's bit is one. -/
theorem guard_apply :
    cmpf (F := Ideal) .ogt countT (constant (F := Ideal) S_ .f32 0x00000000#32) ix0 = 1#1 := by
  rw [cmpf_apply, countT_apply, constant_apply, Ideal.ofBits_zero_f32, Ideal.cmpf_def]
  unfold Ideal.cmp
  show BitVec.ofBool (decide ((0 : EReal) < wN)) = 1#1
  rw [decide_eq_true wN_pos]
  rfl

/-- The variance array at (sample, channel) is the slice's biased variance: the guard selects the quotient, whose
    numerator is the double sum of the squared deviations and whose denominator is the count. -/
theorem varT_apply (b : Fin 8) (c : Fin 256) (h w : Fin 1) :
    varT x (ix4 b c h w) = varR (fun (h w : Fin 256) => x (ix4 b c h w)) := by
  unfold varT varR
  rw [select_apply, bc0_apply, guard_apply, select_one, hostDivf_apply, bc2_apply, reduce_apply, bc0_apply, countT_apply]
  simp only [mulf_apply, devT_apply]

end Pieces

/-! ## The composed term is the specification -/

theorem hostRsqrt_apply {s : Shape} {φ : FTy} (v : FVec Ideal s φ) (i : s.Idx) :
    Host.rsqrt (F := Ideal) v i = Ideal.rsqrt (v i) := rfl

/-- At every index the composed term is the normalise-first spelling on that index's slice. -/
theorem refTerm_eq (x : FVec Ideal S8x256x256x256 .f32) (sw : FVec Ideal S8x16 .f32) (G B : FVec Ideal S16x256 .f32) :
    refTerm x sw G B
      = outR x (Host.dotGeneral (F := Ideal) dot_S8x16_S16x256_S8x256_1_0_0_1_n_n none sw G) (Host.dotGeneral (F := Ideal) dot_S8x16_S16x256_S8x256_1_0_0_1_n_n none sw B) := by
  funext j
  obtain ⟨b, c, h, w, rfl⟩ : ∃ (b : Fin 8) (c h w : Fin 256), j = ix4 b c h w := ⟨j 0, j 1, j 2, j 3, eq_ix4 j⟩
  rw [outR_apply]
  unfold refTerm normR
  rw [addf_apply, mulf_apply, mulf_apply, devT_apply, bc4_apply, bc2_apply, bc4_apply, hostRsqrt_apply, addf_apply, varT_apply,
    bc0_apply, constant_apply, bc4_apply, bc2_apply]

/-! ## The run, at the specification -/

/-- On every device, from any memory with zero counters: every weakly fair execution of @main terminates with the
    result buffer holding the normalise-first instance normalisation of the first argument, scaled and shifted by
    the two mixing products, and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
        = Cert.InstNorm.outR (m ((c.tc : Thread nD τ).loc main_arg0))
            (Host.dotGeneral (F := Ideal) (φ₁ := .f32) (φ₂ := .f32) dot_S8x16_S16x256_S8x256_1_0_0_1_n_n none (m ((c.tc : Thread nD τ).loc main_arg1)) (m ((c.tc : Thread nD τ).loc main_arg2)))
            (Host.dotGeneral (F := Ideal) (φ₁ := .f32) (φ₂ := .f32) dot_S8x16_S16x256_S8x256_1_0_0_1_n_n none (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (refTerm_eq _ _ _ _), (h c).2⟩) (RefRun.run m ρ)

end Cert.ReferenceIdeal.RefValue

end
-- ==== Proof.Finite.lean ====
/-
  What the precondition says: every entry of the four argument arrays is a real number.

  The precondition is the conjunction, over the four arrays, of "every entry's absolute value is below +∞".
  On the extended reals `max x (−x) < ⊤` rules out both infinities, so `x` is a real.
-/
import proofs.«171689_j33019708572224_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic

instance : Subsingleton S_.Idx := ⟨fun a b => funext fun d => d.elim0⟩

/-- The word of +∞ denotes `⊤`. -/
theorem ofBits_inf : Ideal.ofBits .f32 0x7F800000#32 = (⊤ : EReal) := by
  simp [Ideal.ofBits, Ideal.ieee]

/-- An extended real whose absolute value is below `⊤` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One array's test read at an entry. -/
theorem real_of_test {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  refine real_of_abs_lt_top (a i) ?_
  have h' : Ideal.cmp .olt (max (a i) (-(a i))) (Ideal.ofBits .f32 0x7F800000#32) = 1#1 := h
  rw [ofBits_inf] at h'
  simp only [Ideal.cmp] at h'
  by_contra hn
  rw [decide_eq_false hn] at h'
  exact absurd h' (by decide)

variable [Facts]

/-- Under the precondition all four argument arrays hold real numbers. -/
theorem real_of_pre (a0 : FVec Ideal S8x256x256x256 .f32) (a1 : FVec Ideal S8x16 .f32) (a2 a3 : FVec Ideal S16x256 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => real_of_test a0 _ i (Host.reduce_andi_all _ _ _ _ _ h0' i),
    fun i => real_of_test a1 _ i (Host.reduce_andi_all _ _ _ _ _ h1 i),
    fun i => real_of_test a2 _ i (Host.reduce_andi_all _ _ _ _ _ h2 i),
    fun i => real_of_test a3 _ i (Host.reduce_andi_all _ _ _ _ _ h3 i)⟩

end Cert.Pre_finite_inputs.Finite

end
-- ==== Proof.lean ====
/-
  Instance normalisation with a style-mixed affine map: the kernel against its jnp reference.

  Both programs mix the per-style scale and shift tables with the style weights (the same two matrix products,
  `sw · G` and `sw · B`), and normalise every (sample, channel) slice of the big array by its mean and biased
  variance over the 256 × 256 spatial extent.  The kernel folds scale and shift first — `x · (g · r) + (b − mean · (g · r))`
  with `r = rsqrt (var + ε)`, its mean and variance the slice sums times `2⁻¹⁶` — while the reference computes
  `g · ((x − mean) · r) + b` with the sums divided by `65536`.  On the extended reals the quotient by `65536` is
  the product with `2⁻¹⁶`, so mean, variance and `r` coincide outright; the two affine forms agree by
  distributivity, which needs every quantity real: the precondition makes the four arguments real, so the mixing
  products and the slice statistics are real, the variance is non-negative and `ε > 0`, hence `r` is real.

  The kernel's frames are the generated ones; the reference's frame is its run with the result dropped.  The
  idealization rewrote nothing, so `preserves` is trivial.
-/
import proofs.«171689_j33019708572224_2_alg».proof.Defs
import proofs.«171689_j33019708572224_2_alg».proof.Proof.Gen.Kernel
import proofs.«171689_j33019708572224_2_alg».proof.Proof.Gen.Kernel.Skeleton
import proofs.«171689_j33019708572224_2_alg».proof.Proof.Gen.Kernel.Launch
import proofs.«171689_j33019708572224_2_alg».proof.Proof.Gen.Kernel.Points
import proofs.«171689_j33019708572224_2_alg».proof.Proof.Gen.Kernel.Frame
import proofs.«171689_j33019708572224_2_alg».proof.Proof.Gen.KernelIdeal
import proofs.«171689_j33019708572224_2_alg».proof.Proof.Gen.KernelIdeal.Skeleton
import proofs.«171689_j33019708572224_2_alg».proof.Proof.Gen.KernelIdeal.Launch
import proofs.«171689_j33019708572224_2_alg».proof.Proof.Gen.KernelIdeal.Points
import proofs.«171689_j33019708572224_2_alg».proof.Proof.Gen.KernelIdeal.Frame
import proofs.«171689_j33019708572224_2_alg».proof.Proof.Gen.ReferenceIdeal
import proofs.«171689_j33019708572224_2_alg».proof.Proof.Gen.Pre_finite_inputs
import proofs.«171689_j33019708572224_2_alg».proof.Proof.KernelRun
import proofs.«171689_j33019708572224_2_alg».proof.Proof.RefValue
import proofs.«171689_j33019708572224_2_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both runs end at one array: the kernel's at the folded spelling, the reference's at the normalise-first spelling,
    of the same big array and the same two mixing products; under the precondition all of these are real, where the
    two spellings are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  obtain ⟨h0, h1, h2, h3⟩ := Cert.Pre_finite_inputs.Finite.real_of_pre _ _ _ _ (hpre c)
  exact (Cert.InstNorm.outK_eq_outR _ _ _ h0 (Cert.KernelIdeal.Blocks.mix_real _ _ h1 h2)
    (Cert.KernelIdeal.Blocks.mix_real _ _ h1 h3)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
